-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x4096 : Shape := ⟨2, ![16384, 4096]⟩
abbrev S16384x1 : Shape := ⟨2, ![16384, 1]⟩
abbrev S16384 : Shape := ⟨1, ![16384]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S2x2048x4096 .f32) (main_arg1 : IVec S16384x4096 32) (main_arg2 : FVec F S16384x1 .f32) (main_arg3 : FVec F S16384 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384x1 .f32 := Host.absf main_arg2
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S2x2048x4096 : Shape := ⟨3, ![2, 2048, 4096]⟩
abbrev S16384x4096 : Shape := ⟨2, ![16384, 4096]⟩
abbrev S16384x1 : Shape := ⟨2, ![16384, 1]⟩
abbrev S16384 : Shape := ⟨1, ![16384]⟩
abbrev S4096x4096 : Shape := ⟨2, ![4096, 4096]⟩
abbrev S1x16384 : Shape := ⟨2, ![1, 16384]⟩
abbrev S4096x16384 : Shape := ⟨2, ![4096, 16384]⟩
abbrev S1024x1024 : Shape := ⟨2, ![1024, 1024]⟩
abbrev S1024x1 : Shape := ⟨2, ![1024, 1]⟩
abbrev S1x1024 : Shape := ⟨2, ![1, 1024]⟩
abbrev S2x2048x16384 : Shape := ⟨3, ![2, 2048, 16384]⟩

abbrev nBuf : Space → Nat
  | .hbm => 8
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .i32⟩
  | .hbm, ⟨2, _⟩ => ⟨S16384x1, .f32⟩
  | .hbm, ⟨3, _⟩ => ⟨S16384, .f32⟩
  | .hbm, ⟨4, _⟩ => ⟨S4096x4096, .f32⟩
  | .hbm, ⟨5, _⟩ => ⟨S1x16384, .f32⟩
  | .hbm, ⟨6, _⟩ => ⟨S4096x16384, .f32⟩
  | .hbm, ⟨7, _⟩ => ⟨S2x2048x16384, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .i32⟩
  | .local _ .vmem, ⟨3, _⟩ => ⟨S1024x1024, .i32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x2048x4096_S4096x4096 : S2x2048x4096.ShapeCasts S4096x4096
  shapeCasts_S16384_S1x16384 : S16384.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  broadcasts_S1024x1_S1024x1024 : S1024x1.Broadcasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x16384_S2x2048x16384 : S4096x16384.ShapeCasts S2x2048x16384
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .i32 = 32 ∨ (Rect.block (s := S16384x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x16384.size a
  hwx0_4 : ∀ i : grid0.Coords, EltTy.bits .f32 = 32 ∨ (Rect.block (s := S4096x16384) S1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S16384x4096 : Shape := ⟨2, ![16384, 4096]⟩
abbrev S16384x1 : Shape := ⟨2, ![16384, 1]⟩
abbrev S16384 : Shape := ⟨1, ![16384]⟩
abbrev S2x2048x16384 : Shape := ⟨3, ![2, 2048, 16384]⟩
abbrev S1x1x16384 : Shape := ⟨3, ![1, 1, 16384]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .i32⟩
  | .hbm, ⟨2, _⟩ => ⟨S16384x1, .f32⟩
  | .hbm, ⟨3, _⟩ => ⟨S16384, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S2x2048x16384, .f32⟩
  | .hbm, ⟨8, _⟩ => ⟨S1x1x16384, .f32⟩
  | .hbm, ⟨9, _⟩ => ⟨S2x2048x16384, .f32⟩
  | .hbm, ⟨10, _⟩ => ⟨S2x2048x16384, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  dot_S2x2048x4096_S16384x4096_S2x2048x16384_2_1_01_0_n_n_wf : DotDims.WF S2x2048x4096 S16384x4096 S2x2048x16384 [2] [1] [0, 1] [0] [] []

variable [Facts₀]

def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf

class Facts : Prop extends Facts₀ where

variable [Facts]
-- ==== Proof.Spec.lean ====
/-
  The quantized linear layer as one function of its four argument arrays, index by index over the extended reals.

  The weight is stored as integers w[o, i] with one scale per output channel: the dequantized weight is
  w[o, i] · scale[o, 0], the integer read as a number. Entry (b, s, o) of the result is

      Σ_i  x[b, s, i] · (w[o, i] · scale[o, 0])  +  bias[o],      i over the 4096 input features.

  A feature axis of 4096 is four blocks of 1024: feature 1024·k + c is block k, offset c. Summing block by block
  and then over the blocks is the same finite sum (addition of extended reals is commutative and associative, so no
  finiteness of the terms is needed), which is the one law that joins a computation accumulating block products
  with one that contracts the whole axis at once.
-/
import Idealize.ShloMosaic.PureOps.Ideal
import Idealize.ShloMosaic.Lib.ValueIdx

noncomputable section

namespace Cert.QLinear

open Idealize.ShloMosaic Idealize.ShloMosaic.ValueIdx

/-! ## Blocks of 1024 along an axis -/

/-- Position 1024·a + p of an axis of 4096 = 4 · 1024: block a, offset p. -/
def at4 (a : Fin 4) (p : Fin 1024) : Fin 4096 :=
  ⟨1024 * a.val + p.val, by have := a.isLt; have := p.isLt; omega⟩

/-- Position 1024·a + p of an axis of 16384 = 16 · 1024: block a, offset p. -/
def at16 (a : Fin 16) (p : Fin 1024) : Fin 16384 :=
  ⟨1024 * a.val + p.val, by have := a.isLt; have := p.isLt; omega⟩

@[simp] theorem at4_val (a : Fin 4) (p : Fin 1024) : (at4 a p).val = 1024 * a.val + p.val := rfl
@[simp] theorem at16_val (a : Fin 16) (p : Fin 1024) : (at16 a p).val = 1024 * a.val + p.val := rfl

/-- (block, offset) ↔ position, along an axis of 4096. -/
def blockEquiv : Fin 4 × Fin 1024 ≃ Fin 4096 where
  toFun x := at4 x.1 x.2
  invFun i := (⟨i.val / 1024, by have := i.isLt; omega⟩, ⟨i.val % 1024, by omega⟩)
  left_inv x := by
    obtain ⟨a, p⟩ := x
    have := p.isLt
    apply Prod.ext <;> apply Fin.ext <;> simp only [at4_val] <;> omega
  right_inv i := by
    apply Fin.ext
    simp only [at4_val]
    omega

/-- A sum over the 4096 positions is the sum over the four blocks of the sums over a block's 1024 offsets. -/
theorem sum_blocks {M : Type} [AddCommMonoid M] (f : Fin 4096 → M) :
    ∑ i : Fin 4096, f i = ∑ k : Fin 4, ∑ c : Fin 1024, f (at4 k c) := by
  rw [← Equiv.sum_comp blockEquiv f, Fintype.sum_prod_type]
  rfl

/-! ## The layer -/

/-- The dequantized weight of output channel o at input feature i: the stored integer, read as a number, times the
    channel's scale. -/
def deq (w : IVec ⟨2, ![16384, 4096]⟩ 32) (sc : FVec Ideal ⟨2, ![16384, 1]⟩ .f32) (o : Fin 16384) (i : Fin 4096) :
    EReal :=
  FloatOps.sitofp (F := Ideal) .f32 (w (ix2 o i)) * sc (ix2 o (0 : Fin 1))

/-- Row r of a 4096 × 4096 matrix of activations against output channel o: the sum over all 4096 features. -/
def rowDot (X : FVec Ideal ⟨2, ![4096, 4096]⟩ .f32) (w : IVec ⟨2, ![16384, 4096]⟩ 32)
    (sc : FVec Ideal ⟨2, ![16384, 1]⟩ .f32) (r : Fin 4096) (o : Fin 16384) : EReal :=
  ∑ i : Fin 4096, X (ix2 r i) * deq w sc o i

/-- The same restricted to feature block k: what one block product contributes to entry (r, o). -/
def blockDot (X : FVec Ideal ⟨2, ![4096, 4096]⟩ .f32) (w : IVec ⟨2, ![16384, 4096]⟩ 32)
    (sc : FVec Ideal ⟨2, ![16384, 1]⟩ .f32) (r : Fin 4096) (o : Fin 16384) (k : Fin 4) : EReal :=
  ∑ c : Fin 1024, X (ix2 r (at4 k c)) * deq w sc o (at4 k c)

/-- The block's contribution with the block given as a natural number: nothing past the fourth block. -/
def blockDotN (X : FVec Ideal ⟨2, ![4096, 4096]⟩ .f32) (w : IVec ⟨2, ![16384, 4096]⟩ 32)
    (sc : FVec Ideal ⟨2, ![16384, 1]⟩ .f32) (r : Fin 4096) (o : Fin 16384) (k : ℕ) : EReal :=
  if h : k < 4 then blockDot X w sc r o ⟨k, h⟩ else 0

/-- The contraction over all 4096 features is the sum of the four blocks' contributions. -/
theorem rowDot_eq_sum_blocks (X : FVec Ideal ⟨2, ![4096, 4096]⟩ .f32) (w : IVec ⟨2, ![16384, 4096]⟩ 32)
    (sc : FVec Ideal ⟨2, ![16384, 1]⟩ .f32) (r : Fin 4096) (o : Fin 16384) :
    rowDot X w sc r o = ∑ k ∈ Finset.range 4, blockDotN X w sc r o k := by
  unfold rowDot
  rw [sum_blocks, Finset.sum_range]
  refine Finset.sum_congr rfl fun k _ => ?_
  unfold blockDotN
  rw [dif_pos k.isLt]
  rfl

/-- Entry (b, s, o) of the layer: the sum over the features i of x[b, s, i] times the dequantized weight of (o, i),
    plus the bias of channel o. -/
def linearAt (x : FVec Ideal ⟨3, ![2, 2048, 4096]⟩ .f32) (w : IVec ⟨2, ![16384, 4096]⟩ 32)
    (sc : FVec Ideal ⟨2, ![16384, 1]⟩ .f32) (bias : FVec Ideal ⟨1, ![16384]⟩ .f32)
    (b : Fin 2) (s : Fin 2048) (o : Fin 16384) : EReal :=
  (∑ i : Fin 4096, x (ix3 b s i) * deq w sc o i) + bias (ix1 o)

/-- THE LAYER, as an array: its entry at each index's three coordinates. -/
def linear (x : FVec Ideal ⟨3, ![2, 2048, 4096]⟩ .f32) (w : IVec ⟨2, ![16384, 4096]⟩ 32)
    (sc : FVec Ideal ⟨2, ![16384, 1]⟩ .f32) (bias : FVec Ideal ⟨1, ![16384]⟩ .f32) :
    FVec Ideal ⟨3, ![2, 2048, 16384]⟩ .f32 :=
  fun j => linearAt x w sc bias (j 0) (j 1) (j 2)

theorem linear_apply (x : FVec Ideal ⟨3, ![2, 2048, 4096]⟩ .f32) (w : IVec ⟨2, ![16384, 4096]⟩ 32)
    (sc : FVec Ideal ⟨2, ![16384, 1]⟩ .f32) (bias : FVec Ideal ⟨1, ![16384]⟩ .f32)
    (b : Fin 2) (s : Fin 2048) (o : Fin 16384) :
    linear x w sc bias (ix3 b s o) = linearAt x w sc bias b s o := rfl

end Cert.QLinear

end
-- ==== Proof.RefLayer.lean ====
/-
  The reference program computes the layer.

  Its seven host operations, read one at a time at an index: the integer weight converted to a number; the column of
  scales repeated along the feature axis, so entry (o, i) is scale[o, 0]; their product, the dequantized weight; the
  contraction of x's last axis with the dequantized weight's last axis, entry (b, s, o) the sum over i of
  x[b, s, i] times the weight at (o, i); the bias laid along the last axis and repeated over (b, s); the sum of the two.
  With every index named by its coordinates this is the layer's defining formula term for term.
-/
import proofs.«174908_j38766374814111_1_alg».proof.Proof.Gen.ReferenceIdeal.Read
import proofs.«174908_j38766374814111_1_alg».proof.Proof.Spec

noncomputable section

namespace Cert.QLinear.Reference

open Cert.ReferenceIdeal Cert.ReferenceIdeal.Read Idealize.ShloMosaic Idealize.ShloMosaic.ValueIdx

/-- The reference's last stage, as a function of the four argument arrays, is the layer. -/
theorem stage_eq_linear (x : (⟨S2x2048x4096, .f32⟩ : BufTy).Contents (Elt Ideal))
    (w : (⟨S16384x4096, .i32⟩ : BufTy).Contents (Elt Ideal)) (sc : (⟨S16384x1, .f32⟩ : BufTy).Contents (Elt Ideal))
    (bias : (⟨S16384, .f32⟩ : BufTy).Contents (Elt Ideal)) :
    val_main_v6 (F := Ideal) x w sc bias = linear x w sc bias := by
  funext i
  obtain ⟨b, s, o, rfl⟩ : ∃ (b : Fin 2) (s : Fin 2048) (o : Fin 16384), i = ix3 b s o := ⟨i 0, i 1, i 2, eq_ix3 i⟩
  have el : ∀ k : Fin 4096, lidx_main_v3 (ix3 b s o) k = ix3 b s k := fun k =>
    funext fun a => Fin.ext (by match a with | ⟨0, _⟩ => rfl | ⟨1, _⟩ => rfl | ⟨2, _⟩ => rfl)
  have er : ∀ k : Fin 4096, ridx_main_v3 (ix3 b s o) k = ix2 o k := fun k =>
    funext fun a => Fin.ext (by match a with | ⟨0, _⟩ => rfl | ⟨1, _⟩ => rfl)
  have es : ∀ k : Fin 4096, idx_main_v1 (ix2 o k) = ix2 o (0 : Fin 1) := fun k =>
    funext fun a => Fin.ext (by match a with | ⟨0, _⟩ => rfl | ⟨1, _⟩ => rfl)
  have eb : idx_main_v4 (idx_main_v5 (ix3 b s o)) = ix1 o :=
    funext fun a => Fin.ext (by match a with | ⟨0, _⟩ => rfl)
  rw [linear_apply, val_main_v6_apply, val_main_v3_apply, val_main_v5_apply, val_main_v4_apply, eb]
  show (∑ k : Fin 4096, x (lidx_main_v3 (ix3 b s o) k) * val_main_v2 (F := Ideal) w sc (ridx_main_v3 (ix3 b s o) k))
      + bias (ix1 o)
    = (∑ k : Fin 4096, x (ix3 b s k) * deq w sc o k) + bias (ix1 o)
  refine congrArg (· + bias (ix1 o)) (Finset.sum_congr rfl fun k _ => ?_)
  rw [el, er, val_main_v2_apply, val_main_v0_apply, val_main_v1_apply, es]
  rfl

end Cert.QLinear.Reference

end
-- ==== Proof.Blocks.lean ====
/-
  The blocks a grid point works on, as entries of the arrays the region finds.

  The grid is 4 × 16 × 4: point t = 64·i + 4·j + k is row block i of the activations, channel block j of the
  weights, feature block k. At that point
    the activation block  holds X[1024·i + p, 1024·k + c]   (X the activations as a 4096 × 4096 matrix),
    the weight block      holds w[1024·j + q, 1024·k + c],
    the scale block       holds scale[1024·j + q, 0],
    the bias block        holds B[0, 1024·j + q]           (B the bias as a 1 × 16384 row),
  and the output block is rows 1024·i + p, columns 1024·j + q of the 4096 × 16384 result.
  A block's coordinate along an axis is always  (block index) · (block size) + (offset inside the block).
-/
import proofs.«174908_j38766374814111_1_alg».proof.Proof.Gen.KernelIdeal.Frame
import proofs.«174908_j38766374814111_1_alg».proof.Proof.Spec
import Idealize.ShloMosaic.Lib.Pipeline.Value

noncomputable section

namespace Cert.QLinear.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Which block of its array each window is on at point t: row block t / 64, channel block t / 4 mod 16,
    feature block t mod 4. -/
theorem block_index : ∀ t : Fin cfg0.N,
    win0_0.index t (0 : Fin 2) = t.val / 64 ∧ win0_0.index t (1 : Fin 2) = t.val % 4
    ∧ win0_1.index t (0 : Fin 2) = t.val / 4 % 16 ∧ win0_1.index t (1 : Fin 2) = t.val % 4
    ∧ win0_2.index t (0 : Fin 2) = t.val / 4 % 16 ∧ win0_2.index t (1 : Fin 2) = 0
    ∧ win0_3.index t (0 : Fin 2) = 0 ∧ win0_3.index t (1 : Fin 2) = t.val / 4 % 16
    ∧ win0_4.index t (0 : Fin 2) = t.val / 64 ∧ win0_4.index t (1 : Fin 2) = t.val / 4 % 16 :=
  (by decide +kernel : ∀ t : Fin grid0.N, _)

/-- The activation block at a point of row block i and feature block k. -/
theorem act_apply (c : Dev nD) (t : Fin cfg0.N) (i k : Fin 4) (hi : t.val / 64 = i.val) (hk : t.val % 4 = k.val)
    (p c' : Fin 1024) :
    (iblk m c 0 t : Vec F S1024x1024 .f32) (ix2 p c') = V m c main_v0 (ix2 (Cert.QLinear.at4 i p) (Cert.QLinear.at4 k c')) := by
  obtain ⟨h0, h1, -⟩ := block_index t
  unfold iblk
  rw [View.read_apply]
  show V m c main_v0 _ = V m c main_v0 _
  congr 1
  funext a
  apply Fin.ext
  match a with
  | ⟨0, _⟩ => show win0_0.index t 0 * 1024 + 1 * p.val = 1024 * i.val + p.val; rw [h0, hi]; omega
  | ⟨1, _⟩ => show win0_0.index t 1 * 1024 + 1 * c'.val = 1024 * k.val + c'.val; rw [h1, hk]; omega

/-- The weight block at a point of channel block j and feature block k. -/
theorem weight_apply (c : Dev nD) (t : Fin cfg0.N) (j : Fin 16) (k : Fin 4) (hj : t.val / 4 % 16 = j.val)
    (hk : t.val % 4 = k.val) (q c' : Fin 1024) :
    (iblk m c 1 t : Vec F S1024x1024 .i32) (ix2 q c') = V m c main_arg1 (ix2 (Cert.QLinear.at16 j q) (Cert.QLinear.at4 k c')) := by
  obtain ⟨-, -, h0, h1, -⟩ := block_index t
  unfold iblk
  rw [View.read_apply]
  show V m c main_arg1 _ = V m c main_arg1 _
  congr 1
  funext a
  apply Fin.ext
  match a with
  | ⟨0, _⟩ => show win0_1.index t 0 * 1024 + 1 * q.val = 1024 * j.val + q.val; rw [h0, hj]; omega
  | ⟨1, _⟩ => show win0_1.index t 1 * 1024 + 1 * c'.val = 1024 * k.val + c'.val; rw [h1, hk]; omega

/-- The scale block at a point of channel block j. -/
theorem scale_apply (c : Dev nD) (t : Fin cfg0.N) (j : Fin 16) (hj : t.val / 4 % 16 = j.val) (q : Fin 1024) :
    (iblk m c 2 t : Vec F S1024x1 .f32) (ix2 q (0 : Fin 1)) = V m c main_arg2 (ix2 (Cert.QLinear.at16 j q) (0 : Fin 1)) := by
  obtain ⟨-, -, -, -, h0, h1, -⟩ := block_index t
  unfold iblk
  rw [View.read_apply]
  show V m c main_arg2 _ = V m c main_arg2 _
  congr 1
  funext a
  apply Fin.ext
  match a with
  | ⟨0, _⟩ => show win0_2.index t 0 * 1024 + 1 * q.val = 1024 * j.val + q.val; rw [h0, hj]; omega
  | ⟨1, _⟩ => show win0_2.index t 1 * 1 + 1 * 0 = 0; rw [h1]

/-- The bias block at a point of channel block j. -/
theorem bias_apply (c : Dev nD) (t : Fin cfg0.N) (j : Fin 16) (hj : t.val / 4 % 16 = j.val) (q : Fin 1024) :
    (iblk m c 3 t : Vec F S1x1024 .f32) (ix2 (0 : Fin 1) q) = V m c main_v1 (ix2 (0 : Fin 1) (Cert.QLinear.at16 j q)) := by
  obtain ⟨-, -, -, -, -, -, h0, h1, -⟩ := block_index t
  unfold iblk
  rw [View.read_apply]
  show V m c main_v1 _ = V m c main_v1 _
  congr 1
  funext a
  apply Fin.ext
  match a with
  | ⟨0, _⟩ => show win0_3.index t 0 * 1 + 1 * 0 = 0; rw [h0]
  | ⟨1, _⟩ => show win0_3.index t 1 * 1024 + 1 * q.val = 1024 * j.val + q.val; rw [h1, hj]; omega

end Cert.QLinear.Blocks

end
-- ==== Proof.Pieces.lean ====
/-
  What one run of the body leaves in the accumulator and in the output block, in each of its three control cases,
  as values of the blocks it loaded.

  Every store of the body covers its whole buffer, so what a buffer holds afterwards is the last value stored, and a
  load that follows a store reads that value back.
    first feature block : the accumulator is zeroed, read back, and left at   accumulate(X, W, S, zeros);
    a middle block      : the accumulator is left at                           accumulate(X, W, S, previous);
    last feature block  : the same, and the output block is                    addBias(accumulate(X, W, S, previous), B),
  where accumulate and addBias are the body's two stored values as functions of what was loaded.
-/
import proofs.«174908_j38766374814111_1_alg».proof.Proof.Gen.KernelIdeal.Frame
import Idealize.ShloMosaic.Lib.Pipeline.Value
import Idealize.ShloMosaic.Lib.Tactic

noncomputable section

namespace Cert.QLinear.Pieces

open Cert.KernelIdeal Cert.KernelIdeal.Gen Idealize.ShloMosaic Idealize.ShloMosaic.TcCoe Idealize.SL.Sem

variable {F : FTy → Type} [FloatOps F]

/-- The body's loads and stores all start at the origin of their buffers. -/
theorem hz : (![0, 0] : Fin 2 → Nat) = fun _ => 0 := funext fun a => by fin_cases a <;> rfl

/-- At the first feature block the accumulator ends at the block product added to the zeros just stored. -/
theorem acc_first (c : Dev nD) (i : grid0.Coords) (a3 : Memref sig .tc .vmem S1024x1024 .f32) (h3 : a3.IsWhole) (a4 : Memref sig .tc .vmem S1024x1024 .i32) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i) (x0 : Vec F S1024x1024 .f32) (x1 : Vec F S1024x1024 .i32) (x2 : Vec F S1024x1 .f32) (x3 : Vec F S1x1024 .f32) :
    sout0_A_0 c i a3 h3 a4 h4 a5 h5 a6 h6 a7 h7 a8 h8 hc0 hc1 x0 x1 x2 x3 = k0_pay2 x0 x1 x2 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h6.read_unread, h8.read_unread,
    View.ld_unit_zero (S := S1024x1024) hz, View.ld_unit_zero (S := S1024x1) hz, View.ld_unit_zero (S := S1x1024) hz]

/-- At a middle feature block the accumulator ends at the block product added to what it held. -/
theorem acc_middle (c : Dev nD) (i : grid0.Coords) (a3 : Memref sig .tc .vmem S1024x1024 .f32) (h3 : a3.IsWhole) (a4 : Memref sig .tc .vmem S1024x1024 .i32) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i) (x0 : Vec F S1024x1024 .f32) (x1 : Vec F S1024x1024 .i32) (x2 : Vec F S1024x1 .f32) (x3 : Vec F S1x1024 .f32) (xs0 : Vec F S1024x1024 .f32) :
    sout0_B_0 c i a3 h3 a4 h4 a5 h5 a6 h6 a7 h7 a8 h8 hc0 hc1 x0 x1 x2 x3 xs0 = k0_pay2 x0 x1 x2 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz]
  simp only [View.readAt_eq_ld, h3.read_unread, h4.read_unread, h5.read_unread, h6.read_unread, h8.read_unread,
    View.ld_unit_zero (S := S1024x1024) hz, View.ld_unit_zero (S := S1024x1) hz, View.ld_unit_zero (S := S1x1024) hz]

/-- At the last feature block the accumulator ends the same way, -/
theorem acc_last (c : Dev nD) (i : grid0.Coords) (a3 : Memref sig .tc .vmem S1024x1024 .f32) (h3 : a3.IsWhole) (a4 : Memref sig .tc .vmem S1024x1024 .i32) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x0 : Vec F S1024x1024 .f32) (x1 : Vec F S1024x1024 .i32) (x2 : Vec F S1024x1 .f32) (x3 : Vec F S1x1024 .f32) (xs0 : Vec F S1024x1024 .f32) :
    sout0_C_0 c i a3 h3 a4 h4 a5 h5 a6 h6 a7 h7 a8 h8 hc0 hc1 x0 x1 x2 x3 xs0 = k0_pay2 x0 x1 x2 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread,
    View.ld_unit_zero (S := S1024x1024) hz, View.ld_unit_zero (S := S1024x1) hz, View.ld_unit_zero (S := S1x1024) hz]

/-- and the output block is that accumulator, read back, plus the bias row. -/
theorem out_last (c : Dev nD) (i : grid0.Coords) (a3 : Memref sig .tc .vmem S1024x1024 .f32) (h3 : a3.IsWhole) (a4 : Memref sig .tc .vmem S1024x1024 .i32) (h4 : a4.IsWhole) (a5 : Memref sig .tc .vmem S1024x1 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x0 : Vec F S1024x1024 .f32) (x1 : Vec F S1024x1024 .i32) (x2 : Vec F S1024x1 .f32) (x3 : Vec F S1x1024 .f32) (xs0 : Vec F S1024x1024 .f32) :
    out0_C_4 c i a3 h3 a4 h4 a5 h5 a6 h6 a7 h7 a8 h8 hc0 hc1 x0 x1 x2 x3 xs0 = k0_pay3 (k0_pay2 x0 x1 x2 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz, View.readCov_unit_zero (S := S1024x1024) _ hz]
  simp only [View.readAt_eq_ld, h3.read_unread, h4.read_unread, h5.read_unread, h6.read_unread, h8.read_unread,
    View.ld_unit_zero (S := S1024x1024) hz, View.ld_unit_zero (S := S1024x1) hz, View.ld_unit_zero (S := S1x1024) hz]

end Cert.QLinear.Pieces

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.BodyAt.lean ====
/-
  What one run of the kernel body stores, entry by entry, at the ideal values.

  The body keeps a 1024 × 1024 accumulator. At the first feature block it stores zeros into it. At every block it adds
  to the accumulator the product of the activation block X (rows p, block features c) with the dequantized weight block:
  the integer weights of the block's output channels q at the block's features c, each times its channel's scale, the
  product taken with the weight block transposed, so entry (p, q) gains  Σ_c X[p, c] · (W[q, c] · scale[q, 0]).
  Rounding the operands to a shorter float format is the identity on the extended reals. At the last feature block the
  accumulator plus the bias row, entry (p, q) ↦ acc[p, q] + bias[0, q], is stored as the output block.
-/
import proofs.«174908_j38766374814111_1_alg».proof.Proof.Gen.KernelIdeal.Skeleton
import proofs.«174908_j38766374814111_1_alg».proof.Proof.LibContractPlain
import proofs.«174908_j38766374814111_1_alg».proof.Proof.LibKeepdims
import Idealize.ShloMosaic.Lib.ValueLayout
import Idealize.ShloMosaic.Lib.Pipeline.Value
import Idealize.ShloMosaic.PureOps.Ideal.Laws

noncomputable section

namespace Cert.QLinear.Body

open Cert.KernelIdeal Cert.KernelIdeal.Gen Idealize.ShloMosaic Idealize.ShloMosaic.ValueIdx

/-- The block stored at the first feature block is zero everywhere. -/
theorem zeros_apply (j : S1024x1024.Idx) : k0_pay1 (F := Ideal) j = 0 := by
  unfold k0_pay1
  rw [shapeCast_self]
  exact Ideal.ofBits_zero_f32

/-- The accumulator after a feature block: what it held, plus the block product's entry
    Σ_c X[p, c] · (W[q, c] · scale[q, 0]). -/
theorem accumulate_apply (X : Vec Ideal S1024x1024 .f32) (W : Vec Ideal S1024x1024 .i32) (S : Vec Ideal S1024x1 .f32)
    (acc : Vec Ideal S1024x1024 .f32) (p q : Fin 1024) :
    k0_pay2 (F := Ideal) X W S acc (ix2 p q)
      = acc (ix2 p q) + ∑ c : Fin 1024, X (ix2 p c) * (FloatOps.sitofp (F := Ideal) .f32 (W (ix2 q c)) * S (ix2 q (0 : Fin 1))) := by
  unfold k0_pay2
  dsimp only
  rw [shapeCast_self, shapeCast_self, addf_apply, Cert.Lib.ContractPlain.matmulZero_apply dot_S1024x1024_S1024x1024_S1024x1024_1_0_0_1_n_n rfl]
  refine congrArg _ (Finset.sum_congr rfl fun c _ => ?_)
  rw [truncf_apply, transpose_ix2_apply, truncf_apply, mulf_apply, sitofp_apply,
    Cert.Keepdims.broadcastTo_a1_ab_apply]

/-- The output block: the accumulator plus the bias row repeated down the rows. -/
theorem addBias_apply (acc : Vec Ideal S1024x1024 .f32) (B : Vec Ideal S1x1024 .f32) (p q : Fin 1024) :
    k0_pay3 (F := Ideal) acc B (ix2 p q) = acc (ix2 p q) + B (ix2 (0 : Fin 1) q) := by
  unfold k0_pay3
  rw [addf_apply, broadcastTo_1b_ab_apply, shapeCast_self]

end Cert.QLinear.Body

end
-- ==== Proof.Accum.lean ====
/-
  The accumulator across the feature blocks, and the block written back.

  Fix a row block i and a channel block j. The four grid points 64·i + 4·j + k, k = 0, 1, 2, 3, run one after the
  other and share the accumulator. After the point of feature block k the accumulator's entry (p, q) is

      Σ_{k' ≤ k}  Σ_c  X[1024·i + p, 1024·k' + c] · (w[1024·j + q, 1024·k' + c] · scale[1024·j + q, 0]) :

  at k = 0 it is zero plus the first block's contribution, and each later point adds its own block's contribution to
  what the point before left (induction on k). After k = 3 this is the contraction over all 4096 features, and the
  block written back adds the bias of channel 1024·j + q to it.
-/
import proofs.«174908_j38766374814111_1_alg».proof.Proof.Blocks
import proofs.«174908_j38766374814111_1_alg».proof.Proof.Pieces
import proofs.«174908_j38766374814111_1_alg».proof.Proof.BodyAt

noncomputable section

namespace Cert.QLinear.Accum

open Cert.KernelIdeal Cert.KernelIdeal.Gen Idealize.ShloMosaic Idealize.ShloMosaic.TcCoe Idealize.SL.Sem
open Idealize.ShloMosaic.ValueIdx Cert.QLinear

/-! ## One point's arithmetic, over blocks given as variables -/

/-- A point of row block i, channel block j, feature block k adds that block's contribution to each entry of the
    accumulator: the loaded blocks x0, x1, x2 are the arrays X, w, sc at the block's positions. -/
theorem step (X : FVec Ideal ⟨2, ![4096, 4096]⟩ .f32) (w : IVec ⟨2, ![16384, 4096]⟩ 32)
    (sc : FVec Ideal ⟨2, ![16384, 1]⟩ .f32) (i : Fin 4) (j : Fin 16) (k : Fin 4)
    (x0 : Vec Ideal S1024x1024 .f32) (x1 : Vec Ideal S1024x1024 .i32) (x2 : Vec Ideal S1024x1 .f32)
    (h0 : ∀ p c' : Fin 1024, x0 (ix2 p c') = X (ix2 (at4 i p) (at4 k c')))
    (h1 : ∀ q c' : Fin 1024, x1 (ix2 q c') = w (ix2 (at16 j q) (at4 k c')))
    (h2 : ∀ q : Fin 1024, x2 (ix2 q (0 : Fin 1)) = sc (ix2 (at16 j q) (0 : Fin 1)))
    (acc : Vec Ideal S1024x1024 .f32) (p q : Fin 1024) :
    k0_pay2 (F := Ideal) x0 x1 x2 acc (ix2 p q) = acc (ix2 p q) + blockDot X w sc (at4 i p) (at16 j q) k := by
  rw [Body.accumulate_apply]
  unfold blockDot deq
  refine congrArg _ (Finset.sum_congr rfl fun c' _ => ?_)
  rw [h0, h1, h2]

/-- The block written back: the accumulator's new value plus the bias row's entry of the column's channel. -/
theorem finish (Brow : FVec Ideal ⟨2, ![1, 16384]⟩ .f32) (j : Fin 16) (x3 : Vec Ideal S1x1024 .f32)
    (h3 : ∀ q : Fin 1024, x3 (ix2 (0 : Fin 1) q) = Brow (ix2 (0 : Fin 1) (at16 j q)))
    (a : Vec Ideal S1024x1024 .f32) (p q : Fin 1024) :
    k0_pay3 (F := Ideal) a x3 (ix2 p q) = a (ix2 p q) + Brow (ix2 (0 : Fin 1) (at16 j q)) := by
  rw [Body.addBias_apply, h3]

/-! ## The grid's points -/

/-- The point of row block i, channel block j, feature block k. -/
def point (i : Fin 4) (j : Fin 16) (k : ℕ) (hk : k < 4) : Fin cfg0.N :=
  ⟨64 * i.val + 4 * j.val + k, by rw [show cfg0.N = 256 from N_0]; have := i.isLt; have := j.isLt; omega⟩

@[simp] theorem point_val (i : Fin 4) (j : Fin 16) (k : ℕ) (hk : k < 4) :
    (point i j k hk).val = 64 * i.val + 4 * j.val + k := rfl

variable (m : (ℓ : Loc nD τ sig) → Buf (Elt Ideal) ℓ)

/-- The arrays the region finds, at their literal shapes: the activations as a matrix, the integer weights, the
    scales, the bias as a row. -/
abbrev actM (c : Dev nD) : FVec Ideal ⟨2, ![4096, 4096]⟩ .f32 := V m c main_v0
abbrev wgt (c : Dev nD) : IVec ⟨2, ![16384, 4096]⟩ 32 := V m c main_arg1
abbrev scl (c : Dev nD) : FVec Ideal ⟨2, ![16384, 1]⟩ .f32 := V m c main_arg2
abbrev biasRow (c : Dev nD) : FVec Ideal ⟨2, ![1, 16384]⟩ .f32 := V m c main_v1

/-- What the buffers hold after a point depends on the point's number only. -/
theorem outsAt_congr (c : Dev nD) {n n' : ℕ} (e : n = n') (h : n < cfg0.N) (h' : n' < cfg0.N) :
    outsAt0 m c n h = outsAt0 m c n' h' := by
  subst e; rfl

/-! ## The accumulator, by induction on the feature block -/

/-- After the point of feature block k, entry (p, q) of the accumulator is the sum of the contributions of the
    feature blocks 0 … k to entry (1024·i + p, 1024·j + q). -/
theorem acc_eq (c : Dev nD) (i : Fin 4) (j : Fin 16) : ∀ (k : ℕ) (hk : k < 4) (p q : Fin 1024),
    (outsAt0 m c (point i j k hk).val (point i j k hk).isLt).2 (ix2 p q)
      = ∑ k' ∈ Finset.range (k + 1), blockDotN (actM m c) (wgt m c) (scl m c) (at4 i p) (at16 j q) k'
  | 0, hk, p, q => by
    have hj16 := j.isLt
    have hA : (point i j 0 hk).val % 4 = 0 := by rw [point_val]; omega
    have hC : ¬(point i j 0 hk).val % 4 = 3 := by rw [point_val]; omega
    have hi : (point i j 0 hk).val / 64 = i.val := by rw [point_val]; omega
    have hj : (point i j 0 hk).val / 4 % 16 = j.val := by rw [point_val]; omega
    have hk0 : (point i j 0 hk).val % 4 = (0 : Fin 4).val := by rw [point_val]; show _ = 0; omega
    rw [outsAt0_A m c (point i j 0 hk) hA hC]
    dsimp only
    rw [Pieces.acc_first]
    refine (step (actM m c) (wgt m c) (scl m c) i j (0 : Fin 4)
      (iblk m c 0 (point i j 0 hk)) (iblk m c 1 (point i j 0 hk)) (iblk m c 2 (point i j 0 hk))
      (fun p c' => Blocks.act_apply m c (point i j 0 hk) i (0 : Fin 4) hi hk0 p c')
      (fun q c' => Blocks.weight_apply m c (point i j 0 hk) j (0 : Fin 4) hj hk0 q c')
      (fun q => Blocks.scale_apply m c (point i j 0 hk) j hj q)
      (k0_pay1 (F := Ideal)) p q).trans ?_
    rw [Body.zeros_apply, zero_add, Finset.sum_range_one]
    unfold blockDotN
    rw [dif_pos hk]
    rfl
  | k + 1, hk, p, q => by
    have hj16 := j.isLt
    have hk' : k < 4 := by omega
    have hA : ¬(point i j (k + 1) hk).val % 4 = 0 := by rw [point_val]; omega
    have hi : (point i j (k + 1) hk).val / 64 = i.val := by rw [point_val]; omega
    have hj : (point i j (k + 1) hk).val / 4 % 16 = j.val := by rw [point_val]; omega
    have hkk : (point i j (k + 1) hk).val % 4 = (⟨k + 1, hk⟩ : Fin 4).val := by rw [point_val]; show _ = k + 1; omega
    have hprev : (point i j (k + 1) hk).val - 1 = (point i j k hk').val := by rw [point_val, point_val]; omega
    have ih := acc_eq c i j k hk' p q
    by_cases hC : (point i j (k + 1) hk).val % 4 = 3
    · rw [outsAt0_C m c (point i j (k + 1) hk) hA hC]
      dsimp only
      rw [Pieces.acc_last]
      refine (step (actM m c) (wgt m c) (scl m c) i j (⟨k + 1, hk⟩ : Fin 4)
        (iblk m c 0 (point i j (k + 1) hk)) (iblk m c 1 (point i j (k + 1) hk)) (iblk m c 2 (point i j (k + 1) hk))
        (fun p c' => Blocks.act_apply m c (point i j (k + 1) hk) i ⟨k + 1, hk⟩ hi hkk p c')
        (fun q c' => Blocks.weight_apply m c (point i j (k + 1) hk) j ⟨k + 1, hk⟩ hj hkk q c')
        (fun q => Blocks.scale_apply m c (point i j (k + 1) hk) j hj q)
        _ p q).trans ?_
      rw [outsAt_congr m c hprev _ (point i j k hk').isLt, ih, Finset.sum_range_succ _ (k + 1)]
      refine congrArg _ ?_
      unfold blockDotN
      rw [dif_pos hk]
    · rw [outsAt0_B m c (point i j (k + 1) hk) hA hC]
      dsimp only
      rw [Pieces.acc_middle]
      refine (step (actM m c) (wgt m c) (scl m c) i j (⟨k + 1, hk⟩ : Fin 4)
        (iblk m c 0 (point i j (k + 1) hk)) (iblk m c 1 (point i j (k + 1) hk)) (iblk m c 2 (point i j (k + 1) hk))
        (fun p c' => Blocks.act_apply m c (point i j (k + 1) hk) i ⟨k + 1, hk⟩ hi hkk p c')
        (fun q c' => Blocks.weight_apply m c (point i j (k + 1) hk) j ⟨k + 1, hk⟩ hj hkk q c')
        (fun q => Blocks.scale_apply m c (point i j (k + 1) hk) j hj q)
        _ p q).trans ?_
      rw [outsAt_congr m c hprev _ (point i j k hk').isLt, ih, Finset.sum_range_succ _ (k + 1)]
      refine congrArg _ ?_
      unfold blockDotN
      rw [dif_pos hk]

/-! ## The block written back at the last feature block -/

/-- The block the last point of (i, j) leaves for the write-back: entry (p, q) is the contraction over all 4096
    features of row 1024·i + p against channel 1024·j + q, plus that channel's bias. -/
theorem out_eq (c : Dev nD) (i : Fin 4) (j : Fin 16) (p q : Fin 1024) :
    (outsAt0 m c (point i j 3 (by omega)).val (point i j 3 (by omega)).isLt).1 (ix2 p q)
      = rowDot (actM m c) (wgt m c) (scl m c) (at4 i p) (at16 j q) + biasRow m c (ix2 (0 : Fin 1) (at16 j q)) := by
  have hj16 := j.isLt
  have h3 : (3 : ℕ) < 4 := by omega
  have hA : ¬(point i j 3 h3).val % 4 = 0 := by rw [point_val]; omega
  have hC : (point i j 3 h3).val % 4 = 3 := by rw [point_val]; omega
  have hi : (point i j 3 h3).val / 64 = i.val := by rw [point_val]; omega
  have hj : (point i j 3 h3).val / 4 % 16 = j.val := by rw [point_val]; omega
  have hkk : (point i j 3 h3).val % 4 = (⟨3, h3⟩ : Fin 4).val := by rw [point_val]; show _ = 3; omega
  have hacc := acc_eq m c i j 3 h3 p q
  rw [outsAt0_C m c (point i j 3 h3) hA hC] at hacc ⊢
  dsimp only at hacc ⊢
  rw [Pieces.acc_last] at hacc
  rw [Pieces.out_last]
  refine (finish (biasRow m c) j (iblk m c 3 (point i j 3 h3))
    (fun q => Blocks.bias_apply m c (point i j 3 h3) j hj q) _ p q).trans ?_
  rw [hacc, rowDot_eq_sum_blocks]

end Cert.QLinear.Accum

end
-- ==== Proof.LibMergeRows.lean ====
/-
  Two leading axes merged into one by a shape cast, and split again.

  An array of shape [a, b, c] and the matrix of shape [a·b, c] with the same elements in the same row-major order
  are related by  row = i·b + j : entry (i, j, k) of the array is entry (i·b + j, k) of the matrix. Both casts
  are read here at coordinates, with the row given by that equation.
-/
import Idealize.ShloMosaic.Lib.ValueIdx
import Idealize.ShloMosaic.Lib.Pipeline.Value

noncomputable section

namespace Cert.Lib.MergeRows

open Idealize.ShloMosaic Idealize.ShloMosaic.ValueIdx

variable {α : Type}

/-- An [a, b, c] array cast to [n, c] reads, at (r, k) with r = i·b + j, the array at (i, j, k). -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An [n, c] matrix cast to [a, b, c] reads, at (i, j, k), the matrix at (r, k) with r = i·b + j. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Cert.Lib.MergeRows

end
-- ==== Proof.Result.lean ====
/-
  The kernel's result array is the layer of its four argument arrays.

  Before the grid runs the activations x[b, s, i] are re-laid as the matrix X[2048·b + s, i] and the bias as a row
  B[0, o]; the weights and scales are read as they are. The grid's output is a 4096 × 16384 matrix Y cut into
  1024 × 1024 blocks; block (i, j) is written back once, by the last of its four points, and holds
      Y[r, o] = Σ_f X[r, f] · (w[o, f] · scale[o, 0]) + B[0, o]
  at its rows r = 1024·i + p and columns o = 1024·j + q. Every entry (r, o) lies in the block (r / 1024, o / 1024), so
  the blocks written back cover Y and Y is that one function everywhere. After the grid Y is re-laid as
  [2, 2048, 16384]: entry (b, s, o) is Y[2048·b + s, o], which in terms of x, w, scale and bias is the layer's entry.
-/
import proofs.«174908_j38766374814111_1_alg».proof.Proof.Accum
import proofs.«174908_j38766374814111_1_alg».proof.Proof.LibMergeRows
import Idealize.ShloMosaic.Lib.Pipeline.Value
import Idealize.ShloMosaic.Lib.ValueLayout
import Idealize.ShloMosaic.Lib.StableHlo.Run
import Idealize.ShloMosaic.Lib.Tactic

noncomputable section

namespace Cert.QLinear.Result

open Cert.KernelIdeal Cert.KernelIdeal.Gen Idealize.ShloMosaic Idealize.ShloMosaic.TcCoe Idealize.SL.Sem
open Idealize.ShloMosaic.ValueIdx Cert.QLinear Cert.QLinear.Accum
open Idealize.ShloMosaic.Pipeline (Dat)

variable (m : (ℓ : Loc nD τ sig) → Buf (Elt Ideal) ℓ) (ρ : Dev nD → PrngReg)

/-! ## What the region finds: the two arrays re-laid before it -/

/-- The activations as the region finds them: the argument re-laid as a 4096 × 4096 matrix. -/
theorem act_eq (c : Dev nD) : (V m c main_v0 : S4096x4096.Idx → EReal)
    = shapeCast S4096x4096 (m ((c : Thread nD τ).loc main_arg0)) shapeCasts_S2x2048x4096_S4096x4096 := by
  show StableHlo.after hostOps0 (fun b => m (c, b)) (Proc.devRef .tc main_v0) = _
  after_results
  rfl

/-- The bias as the region finds it: the argument re-laid as a row. -/
theorem brow_eq (c : Dev nD) : (V m c main_v1 : S1x16384.Idx → EReal)
    = shapeCast S1x16384 (m ((c : Thread nD τ).loc main_arg3)) shapeCasts_S16384_S1x16384 := by
  show StableHlo.after hostOps0 (fun b => m (c, b)) (Proc.devRef .tc main_v1) = _
  after_results
  rfl

/-- Row 2048·b + s of the activation matrix is x[b, s, ·]. -/
theorem actM_apply (c : Dev nD) (b : Fin 2) (s : Fin 2048) (f : Fin 4096) (r : Fin 4096)
    (hr : r.val = b.val * 2048 + s.val) :
    actM m c (ix2 r f) = (m ((c : Thread nD τ).loc main_arg0)) (ix3 b s f) := by
  show (V m c main_v0 : S4096x4096.Idx → EReal) (ix2 r f) = _
  rw [act_eq]
  exact Cert.Lib.MergeRows.shapeCast_abc_nc_apply _ _ b s f r hr

/-- The bias row's entry of channel o is bias[o]. -/
theorem biasRow_apply (c : Dev nD) (o : Fin 16384) :
    biasRow m c (ix2 (0 : Fin 1) o) = (m ((c : Thread nD τ).loc main_arg3)) (ix1 o) := by
  show (V m c main_v1 : S1x16384.Idx → EReal) (ix2 (0 : Fin 1) o) = _
  rw [brow_eq]
  exact shapeCast_a_1a_apply _ _ (0 : Fin 1) o

/-! ## The grid's output matrix -/

/-- The last feature block is the fourth. -/
theorem lt34 : (3 : ℕ) < 4 := Nat.lt_succ_self 3

/-- Entry (r, o) of the grid's output: row r against channel o over all features, plus the channel's bias. -/
def matrixAt (c : Dev nD) (r : Fin 4096) (o : Fin 16384) : EReal :=
  rowDot (actM m c) (wgt m c) (scl m c) r o + biasRow m c (ix2 (0 : Fin 1) o)

/-- The grid's output as one array. -/
def matrix (c : Dev nD) : FVec Ideal ⟨2, ![4096, 16384]⟩ .f32 := fun idx => matrixAt m c (idx 0) (idx 1)

/-- The block the last point of (i, j) leaves for the write-back, as a whole block. -/
theorem out_block (c : Dev nD) (i : Fin 4) (j : Fin 16) :
    ((outsAt0 m c (point i j 3 lt34).val (point i j 3 lt34).isLt).1 : Vec Ideal S1024x1024 .f32)
      = fun z => matrixAt m c (at4 i (z 0)) (at16 j (z 1)) := by
  funext z
  obtain ⟨p, q, rfl⟩ : ∃ p q : Fin 1024, z = ix2 p q := ⟨z 0, z 1, eq_ix2 z⟩
  exact out_eq m c i j p q

/-- What a writing point writes back is its block of the output matrix. -/
theorem flushed_eq (c : Dev nD) (t : Fin cfg0.N) (hf : (cfg0.win 4).flush t = true) :
    (dats m 0 c).flushed 4 t = ((cfg0.win 4).blk t).view.read (Elt Ideal) (matrix m c) := by
  have h3 : t.val % 4 = 3 := (flush0_4 t).mp hf
  have hN : t.val < 256 := lt_of_lt_of_eq t.isLt (show cfg0.N = 256 from N_0)
  obtain ⟨i, j, rfl⟩ : ∃ (i : Fin 4) (j : Fin 16), t = point i j 3 lt34 :=
    ⟨⟨t.val / 64, by omega⟩, ⟨t.val / 4 % 16, by omega⟩, Fin.ext (by
      show t.val = 64 * (t.val / 64) + 4 * (t.val / 4 % 16) + 3
      omega)⟩
  have hj16 := j.isLt
  obtain ⟨-, -, -, -, -, -, -, -, e0, e1⟩ := Blocks.block_index (point i j 3 lt34)
  rw [point_val] at e0 e1
  show (cfg0.win 4).cut (grid0.coords (point i j 3 lt34)) ((dats m 0 c).after 4 (point i j 3 lt34)) = _
  rw [after0_4, out_block]
  funext y
  have hy0 : (y 0).val < 1024 := (y 0).isLt
  have hy1 : (y 1).val < 1024 := (y 1).isLt
  show matrixAt m c (at4 i ⟨(y 0).val, hy0⟩) (at16 j ⟨(y 1).val, hy1⟩)
    = matrix m c (((cfg0.win 4).blk (point i j 3 lt34)).view.emb y)
  have ee : ((cfg0.win 4).blk (point i j 3 lt34)).view.emb y
      = ix2 (at4 i ⟨(y 0).val, hy0⟩) (at16 j ⟨(y 1).val, hy1⟩) := by
    funext a
    apply Fin.ext
    match a with
    | ⟨0, _⟩ =>
      show win0_4.index (point i j 3 lt34) (0 : Fin 2) * 1024 + 1 * (y 0).val = 1024 * i.val + (y 0).val
      rw [e0]; omega
    | ⟨1, _⟩ =>
      show win0_4.index (point i j 3 lt34) (1 : Fin 2) * 1024 + 1 * (y 1).val = 1024 * j.val + (y 1).val
      rw [e1]; omega
  rw [ee]
  rfl

/-- An entry of the output matrix is in a point's block iff each coordinate is in the block's range. -/
theorem mem_blk (t : Fin cfg0.N) (idx : S4096x16384.Idx) :
    idx ∈ ((cfg0.win 4).blk t).view.set ↔ ∀ a : Fin 2, win0_4.index t a * S1024x1024.size a ≤ (idx a).val
      ∧ (idx a).val < win0_4.index t a * S1024x1024.size a + S1024x1024.size a := by
  show idx ∈ ((View.whole main_v2).slice (win0_4.rect t)).set ↔ _
  rw [View.set_slice_whole, Rect.mem_set_unit]
  exact Iff.rfl

/-- Entry (r, o) is written back by the last point of block (r / 1024, o / 1024). -/
theorem cover (idx : S4096x16384.Idx) :
    ∃ t : Fin cfg0.N, (cfg0.win 4).flush t = true ∧ idx ∈ ((cfg0.win 4).blk t).view.set := by
  have h0 : (idx 0).val < 4096 := (idx 0).isLt
  have h1 : (idx 1).val < 16384 := (idx 1).isLt
  obtain ⟨t, ht⟩ : ∃ t : Fin cfg0.N, t.val = 64 * ((idx 0).val / 1024) + 4 * ((idx 1).val / 1024) + 3 :=
    ⟨point ⟨(idx 0).val / 1024, by omega⟩ ⟨(idx 1).val / 1024, by omega⟩ 3 (by omega), rfl⟩
  obtain ⟨-, -, -, -, -, -, -, -, e0, e1⟩ := Blocks.block_index t
  refine ⟨t, (flush0_4 t).mpr (by omega), ?_⟩
  rw [mem_blk]
  intro a
  match a with
  | ⟨0, _⟩ =>
    show win0_4.index t (0 : Fin 2) * 1024 ≤ (idx 0).val ∧ (idx 0).val < win0_4.index t (0 : Fin 2) * 1024 + 1024
    rw [e0]; omega
  | ⟨1, _⟩ =>
    show win0_4.index t (1 : Fin 2) * 1024 ≤ (idx 1).val ∧ (idx 1).val < win0_4.index t (1 : Fin 2) * 1024 + 1024
    rw [e1]; omega

/-- So after the last point the output array is the output matrix. -/
theorem final (c : Dev nD) : (dats m 0 c).arrAt 4 cfg0.N = matrix m c :=
  (dats m 0 c).arrAt_eq_of_cover 4 (matrix m c) (fun t hf => flushed_eq m c t hf) (cover)

/-! ## After the grid: the matrix re-laid, and the layer -/

/-- The program's result: the output array re-laid as [2, 2048, 16384]. -/
theorem tail_eq (c : Dev nD) :
    (Pipeline.afterTail₀ cfgs (dats m) 0 (V0 m) [hostOps1] c main_v3 : S2x2048x16384.Idx → EReal)
      = shapeCast S2x2048x16384 ((dats m 0 c).arrAt 4 cfg0.N) shapeCasts_S4096x16384_S2x2048x16384 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 4 cfg0.N := Pipeline.withArrays_arr spec0 launch0.win.arr_inj c _ _ 4
  rw [e]
  generalize (dats m 0 c).arrAt 4 cfg0.N = A
  rfl

/-- The program's result is the layer of the argument arrays. -/
theorem result_eq (c : Dev nD) :
    (Pipeline.afterTail₀ cfgs (dats m) 0 (V0 m) [hostOps1] c main_v3 : S2x2048x16384.Idx → EReal)
      = linear (m ((c : Thread nD τ).loc main_arg0)) (m ((c : Thread nD τ).loc main_arg1)) (m ((c : Thread nD τ).loc main_arg2)) (m ((c : Thread nD τ).loc main_arg3)) := by
  rw [tail_eq, final]
  funext idx
  obtain ⟨b, s, o, rfl⟩ : ∃ (b : Fin 2) (s : Fin 2048) (o : Fin 16384), idx = ix3 b s o :=
    ⟨idx 0, idx 1, idx 2, eq_ix3 idx⟩
  have hb := b.isLt
  have hs := s.isLt
  rw [linear_apply,
    Cert.Lib.MergeRows.shapeCast_nc_abc_apply _ _ b s o ⟨b.val * 2048 + s.val, by omega⟩ rfl]
  show rowDot (actM m c) (wgt m c) (scl m c) ⟨b.val * 2048 + s.val, by omega⟩ o + biasRow m c (ix2 (0 : Fin 1) o) = _
  unfold rowDot linearAt
  rw [biasRow_apply, show wgt m c = (m ((c : Thread nD τ).loc main_arg1)) from V_main_arg1 m c,
    show scl m c = (m ((c : Thread nD τ).loc main_arg2)) from V_main_arg2 m c]
  refine congrArg (· + _) (Finset.sum_congr rfl fun f _ => ?_)
  rw [actM_apply m c b s f ⟨b.val * 2048 + s.val, by omega⟩ rfl]

/-! ## The run -/

/-- Every weakly fair execution of the program terminates with its result at the layer of the argument arrays and the
    arguments as they were. -/
theorem run : θ_run defs (onTc (τ := τ) (main (F := Ideal))) ⟨m, fun _ => 0, ρ⟩ fun r => ∀ c : Dev nD,
      r.2.mem ((c.tc : Thread nD τ).loc main_v3)
        = linear (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.QLinear.Result

end
-- ==== Proof.lean ====
/-
  A quantized linear layer computed block by block equals the same layer computed at once, over the extended reals.

  Both programs take activations x[b, s, i] (2 × 2048 × 4096), integer weights w[o, i] (16384 × 4096), one scale per
  output channel scale[o, 0] and a bias bias[o], and return, at (b, s, o),

      Σ_i  x[b, s, i] · (w[o, i] · scale[o, 0])  +  bias[o].

  The reference forms the dequantized weight w · scale, contracts the feature axis in one step and adds the bias.
  The kernel views the activations as a 4096 × 4096 matrix, cuts rows, channels and features into blocks of 1024, and
  for each (row block, channel block) runs over the four feature blocks: it zeroes an accumulator at the first, adds
  one block product Σ_c X[p, c] · (W[q, c] · scale[q]) at each, and at the last writes accumulator + bias back. Reading
  every float operation exactly (a change of float format is the identity), the accumulator after the four blocks is
  the sum of the four partial sums over 1024 features each, which is the sum over all 4096 features: a finite sum of
  extended reals regrouped, which needs commutativity and associativity of addition only, so the inputs' finiteness
  is not used. The three frame claims are the generated runs; the idealization rewrote nothing.
-/
import proofs.«174908_j38766374814111_1_alg».proof.Defs
import proofs.«174908_j38766374814111_1_alg».proof.Proof.Gen.Kernel
import proofs.«174908_j38766374814111_1_alg».proof.Proof.Gen.Kernel.Skeleton
import proofs.«174908_j38766374814111_1_alg».proof.Proof.Gen.Kernel.Launch
import proofs.«174908_j38766374814111_1_alg».proof.Proof.Gen.Kernel.Points
import proofs.«174908_j38766374814111_1_alg».proof.Proof.Gen.Kernel.Frame
import proofs.«174908_j38766374814111_1_alg».proof.Proof.Gen.KernelIdeal
import proofs.«174908_j38766374814111_1_alg».proof.Proof.Gen.KernelIdeal.Skeleton
import proofs.«174908_j38766374814111_1_alg».proof.Proof.Gen.KernelIdeal.Launch
import proofs.«174908_j38766374814111_1_alg».proof.Proof.Gen.KernelIdeal.Points
import proofs.«174908_j38766374814111_1_alg».proof.Proof.Gen.KernelIdeal.Frame
import proofs.«174908_j38766374814111_1_alg».proof.Proof.Gen.ReferenceIdeal
import proofs.«174908_j38766374814111_1_alg».proof.Proof.Gen.ReferenceIdeal.Run
import proofs.«174908_j38766374814111_1_alg».proof.Proof.Gen.ReferenceIdeal.Read
import proofs.«174908_j38766374814111_1_alg».proof.Proof.Gen.Pre_finite_inputs
import proofs.«174908_j38766374814111_1_alg».proof.Proof.RefLayer
import proofs.«174908_j38766374814111_1_alg».proof.Proof.Result
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized. -/
theorem preserves : Cert.preserves_Kernel_KernelIdeal := trivial

/-- From memories that agree on the four arguments both programs end with the layer of those arguments as their
    result: the kernel by its accumulation over the feature blocks, the reference by its one contraction. -/
theorem algebraic : Cert.algebraic_KernelIdeal_ReferenceIdeal := by
  intro m ρ m' ρ' _ hagree
  refine ⟨fun c => Cert.QLinear.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.QLinear.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.QLinear.Reference.stage_eq_linear,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
